-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x256 : Shape := ⟨3, ![32, 2048, 256]⟩
abbrev S32x512x256 : Shape := ⟨3, ![32, 512, 256]⟩
abbrev S_ : Shape := ⟨0, ![]⟩

class Facts : Prop where
  bcast_S_S32x2048x256 : S_.BroadcastsInDim S32x2048x256 (![] : Fin 0 → Fin S32x2048x256.rank)
  reducesTo_S32x2048x256_S_d0_1_2 : S32x2048x256.ReducesTo [0, 1, 2] S_
  h_S_ : 0 < S_.numel
  bcast_S_S32x512x256 : S_.BroadcastsInDim S32x512x256 (![] : Fin 0 → Fin S32x512x256.rank)
  reducesTo_S32x512x256_S_d0_1_2 : S32x512x256.ReducesTo [0, 1, 2] S_

variable [Facts]

def fn {F : FTy → Type} [FloatOps F] (main_arg0 : FVec F S32x2048x256 .f32) (main_arg1 : FVec F S32x512x256 .f32) : IVec S_ 1 :=
  let main_v0 : FVec F S32x2048x256 .f32 := Host.absf main_arg0
  let main_cst : FVec F S_ .f32 := constant S_ .f32 0x7F800000#32
  let main_v1 : FVec F S32x2048x256 .f32 := broadcastInDim S32x2048x256 ![] bcast_S_S32x2048x256 main_cst
  let main_v2 : IVec S32x2048x256 1 := cmpf .olt main_v0 main_v1
  let main_c : IVec S_ 1 := constantI S_ 1 1#1
  let main_v3 : IVec S_ 1 := (fun x v => Host.reduce IntOp.andi x v reducesTo_S32x2048x256_S_d0_1_2 h_S_) main_v2 main_c
  let main_v4 : FVec F S32x512x256 .f32 := Host.absf main_arg1
  let main_cst_0 : FVec F S_ .f32 := constant S_ .f32 0x7F800000#32
  let main_v5 : FVec F S32x512x256 .f32 := broadcastInDim S32x512x256 ![] bcast_S_S32x512x256 main_cst_0
  let main_v6 : IVec S32x512x256 1 := cmpf .olt main_v4 main_v5
  let main_c_1 : IVec S_ 1 := constantI S_ 1 1#1
  let main_v7 : IVec S_ 1 := (fun x v => Host.reduce IntOp.andi x v reducesTo_S32x512x256_S_d0_1_2 h_S_) main_v6 main_c_1
  let main_v8 : IVec S_ 1 := andi main_v3 main_v7
  main_v8
-- ==== Kernel.lean ====
abbrev S32x2048x256 : Shape := ⟨3, ![32, 2048, 256]⟩
abbrev S32x512x256 : Shape := ⟨3, ![32, 512, 256]⟩
abbrev S1x2048x256 : Shape := ⟨3, ![1, 2048, 256]⟩
abbrev S1x512x256 : Shape := ⟨3, ![1, 512, 256]⟩
abbrev S2048x256 : Shape := ⟨2, ![2048, 256]⟩
abbrev S512x256 : Shape := ⟨2, ![512, 256]⟩
abbrev S2048 : Shape := ⟨1, ![2048]⟩
abbrev S2048x1 : Shape := ⟨2, ![2048, 1]⟩
abbrev S512 : Shape := ⟨1, ![512]⟩
abbrev S512x1 : Shape := ⟨2, ![512, 1]⟩
abbrev S1x512 : Shape := ⟨2, ![1, 512]⟩
abbrev S256x512 : Shape := ⟨2, ![256, 512]⟩
abbrev S2048x512 : Shape := ⟨2, ![2048, 512]⟩
abbrev S512x2048 : Shape := ⟨2, ![512, 2048]⟩
abbrev S32x2560x256 : Shape := ⟨3, ![32, 2560, 256]⟩

abbrev nBuf : Space → Nat
  | .hbm => 5
  | .vmem => 8
  | .smem => 0
  | _ => 0

abbrev bufTy : (tb : Table) → Fin (tcTables nBuf tb) → BufTy
  | .hbm, ⟨0, _⟩ => ⟨S32x2048x256, .f32⟩
  | .hbm, ⟨1, _⟩ => ⟨S32x512x256, .f32⟩
  | .hbm, ⟨2, _⟩ => ⟨S32x2048x256, .f32⟩
  | .hbm, ⟨3, _⟩ => ⟨S32x512x256, .f32⟩
  | .hbm, ⟨4, _⟩ => ⟨S32x2560x256, .f32⟩
  | .local _ .vmem, ⟨0, _⟩ => ⟨S1x2048x256, .f32⟩
  | .local _ .vmem, ⟨1, _⟩ => ⟨S1x2048x256, .f32⟩
  | .local _ .vmem, ⟨2, _⟩ => ⟨S1x512x256, .f32⟩
  | .local _ .vmem, ⟨3, _⟩ => ⟨S1x512x256, .f32⟩
  | .local _ .vmem, ⟨4, _⟩ => ⟨S1x2048x256, .f32⟩
  | .local _ .vmem, ⟨5, _⟩ => ⟨S1x2048x256, .f32⟩
  | .local _ .vmem, ⟨6, _⟩ => ⟨S1x512x256, .f32⟩
  | .local _ .vmem, ⟨7, _⟩ => ⟨S1x512x256, .f32⟩
  | _, _ => ⟨S32x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  reduces_S2048x256_S2048 : S2048x256.Reduces [1] S2048
  shapeCasts_S2048_S2048x1 : S2048.ShapeCasts S2048x1
  reduces_S512x256_S512 : S512x256.Reduces [1] S512
  shapeCasts_S512_S512x1 : S512.ShapeCasts S512x1
  transposes_S512x1_p1_0_S1x512 : S512x1.Transposes [1, 0] S1x512
  bitsLt_bf16_f32 : FTy.bits .bf16 < FTy.bits .f32
  transposes_S512x256_p1_0_S256x512 : S512x256.Transposes [1, 0] S256x512
  broadcasts_S2048x1_S2048x512 : S2048x1.Broadcasts S2048x512
  broadcasts_S1x512_S2048x512 : S1x512.Broadcasts S2048x512
  transposes_S2048x512_p1_0_S512x2048 : S2048x512.Transposes [1, 0] S512x2048
  shapeCasts_S2048x256_S1x2048x256 : S2048x256.ShapeCasts S1x2048x256
  shapeCasts_S512x256_S1x512x256 : S512x256.ShapeCasts S1x512x256
  concatenates_S32x2048x256_S32x512x256_S32x2560x256_d1 : Shape.Concatenates [S32x2048x256, S32x512x256] S32x2560x256 1
  dot_S2048x256_S256x512_S2048x512_1_0_0_1_n_n_wf : DotDims.WF S2048x256 S256x512 S2048x512 [1] [0] [0] [1] [] []
  dot_S2048x512_S512x256_S2048x256_1_0_0_1_n_n_wf : DotDims.WF S2048x512 S512x256 S2048x256 [1] [0] [0] [1] [] []
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S32x2048x256.size a
  hwx0_0 : ∀ i : grid0.Coords, EltTy.bits .f32 = 32 ∨ (Rect.block (s := S32x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S32x512x256.size a
  hwx0_1 : ∀ i : grid0.Coords, EltTy.bits .f32 = 32 ∨ (Rect.block (s := S32x512x256) S1x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S32x2048x256.size a
  hwx0_2 : ∀ i : grid0.Coords, EltTy.bits .f32 = 32 ∨ (Rect.block (s := S32x2048x256) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S32x512x256.size a
  hwx0_3 : ∀ i : grid0.Coords, EltTy.bits .f32 = 32 ∨ (Rect.block (s := S32x512x256) S1x512x256.size (cc0_transform_3 i) (hinb0_3 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x2048x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x256 : Shape := ⟨3, ![32, 2048, 256]⟩
abbrev S32x512x256 : Shape := ⟨3, ![32, 512, 256]⟩
abbrev S_ : Shape := ⟨0, ![]⟩
abbrev S32x2048 : Shape := ⟨2, ![32, 2048]⟩
abbrev S32x2048x1 : Shape := ⟨3, ![32, 2048, 1]⟩
abbrev S32x512 : Shape := ⟨2, ![32, 512]⟩
abbrev S32x1x512 : Shape := ⟨3, ![32, 1, 512]⟩
abbrev S32x2048x512 : Shape := ⟨3, ![32, 2048, 512]⟩
abbrev S32x2560x256 : Shape := ⟨3, ![32, 2560, 256]⟩

abbrev nBuf : Space → Nat
  | .hbm => 31
  | .vmem => 0
  | .smem => 0
  | _ => 0

abbrev bufTy : (tb : Table) → Fin (tcTables nBuf tb) → BufTy
  | .hbm, ⟨0, _⟩ => ⟨S32x2048x256, .f32⟩
  | .hbm, ⟨1, _⟩ => ⟨S32x512x256, .f32⟩
  | .hbm, ⟨2, _⟩ => ⟨S32x2048x256, .f32⟩
  | .hbm, ⟨3, _⟩ => ⟨S_, .f32⟩
  | .hbm, ⟨4, _⟩ => ⟨S32x2048, .f32⟩
  | .hbm, ⟨5, _⟩ => ⟨S32x2048x1, .f32⟩
  | .hbm, ⟨6, _⟩ => ⟨S32x512x256, .f32⟩
  | .hbm, ⟨7, _⟩ => ⟨S_, .f32⟩
  | .hbm, ⟨8, _⟩ => ⟨S32x512, .f32⟩
  | .hbm, ⟨9, _⟩ => ⟨S32x1x512, .f32⟩
  | .hbm, ⟨10, _⟩ => ⟨S32x2048x512, .f32⟩
  | .hbm, ⟨11, _⟩ => ⟨S32x2048x512, .f32⟩
  | .hbm, ⟨12, _⟩ => ⟨S32x2048x512, .f32⟩
  | .hbm, ⟨13, _⟩ => ⟨S32x2048x512, .f32⟩
  | .hbm, ⟨14, _⟩ => ⟨S_, .f32⟩
  | .hbm, ⟨15, _⟩ => ⟨S32x2048x512, .f32⟩
  | .hbm, ⟨16, _⟩ => ⟨S32x2048x512, .f32⟩
  | .hbm, ⟨17, _⟩ => ⟨S32x2048x512, .f32⟩
  | .hbm, ⟨18, _⟩ => ⟨S_, .f32⟩
  | .hbm, ⟨19, _⟩ => ⟨S32x2048x512, .f32⟩
  | .hbm, ⟨20, _⟩ => ⟨S32x2048x512, .f32⟩
  | .hbm, ⟨21, _⟩ => ⟨S32x2048x512, .f32⟩
  | .hbm, ⟨22, _⟩ => ⟨S_, .f32⟩
  | .hbm, ⟨23, _⟩ => ⟨S32x2048x512, .f32⟩
  | .hbm, ⟨24, _⟩ => ⟨S32x2048x512, .f32⟩
  | .hbm, ⟨25, _⟩ => ⟨S_, .f32⟩
  | .hbm, ⟨26, _⟩ => ⟨S32x2048x512, .f32⟩
  | .hbm, ⟨27, _⟩ => ⟨S32x2048x512, .f32⟩
  | .hbm, ⟨28, _⟩ => ⟨S32x2048x256, .f32⟩
  | .hbm, ⟨29, _⟩ => ⟨S32x512x256, .f32⟩
  | .hbm, ⟨30, _⟩ => ⟨S32x2560x256, .f32⟩
  | _, _ => ⟨S32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  reducesTo_S32x2048x256_S32x2048_d2 : S32x2048x256.ReducesTo [2] S32x2048
  h_S_ : 0 < S_.numel
  bcast_S32x2048_S32x2048x1_0_1 : S32x2048.BroadcastsInDim S32x2048x1 (![0, 1] : Fin 2 → Fin S32x2048x1.rank)
  reducesTo_S32x512x256_S32x512_d2 : S32x512x256.ReducesTo [2] S32x512
  bcast_S32x512_S32x1x512_0_2 : S32x512.BroadcastsInDim S32x1x512 (![0, 2] : Fin 2 → Fin S32x1x512.rank)
  bcast_S32x2048x1_S32x2048x512_0_1_2 : S32x2048x1.BroadcastsInDim S32x2048x512 (![0, 1, 2] : Fin 3 → Fin S32x2048x512.rank)
  bcast_S32x1x512_S32x2048x512_0_1_2 : S32x1x512.BroadcastsInDim S32x2048x512 (![0, 1, 2] : Fin 3 → Fin S32x2048x512.rank)
  bcast_S_S32x2048x512 : S_.BroadcastsInDim S32x2048x512 (![] : Fin 0 → Fin S32x2048x512.rank)
  concatenates_S32x2048x256_S32x512x256_S32x2560x256_d1 : Shape.Concatenates [S32x2048x256, S32x512x256] S32x2560x256 1
  dot_S32x2048x256_S32x512x256_S32x2048x512_2_2_1_1_0_0_wf : DotDims.WF S32x2048x256 S32x512x256 S32x2048x512 [2] [2] [1] [1] [0] [0]
  dot_S32x2048x512_S32x512x256_S32x2048x256_2_1_1_2_0_0_wf : DotDims.WF S32x2048x512 S32x512x256 S32x2048x256 [2] [1] [1] [2] [0] [0]
  dot_S32x2048x512_S32x2048x256_S32x512x256_1_1_2_2_0_0_wf : DotDims.WF S32x2048x512 S32x2048x256 S32x512x256 [1] [1] [2] [2] [0] [0]

variable [Facts₀]

def dot_S32x2048x256_S32x512x256_S32x2048x512_2_2_1_1_0_0 : DotDims S32x2048x256 S32x512x256 S32x2048x512 where
  lhsContracting := [2]
  rhsContracting := [2]
  lhsNonContracting := [1]
  rhsNonContracting := [1]
  lhsBatch := [0]
  rhsBatch := [0]
  wf := dot_S32x2048x256_S32x512x256_S32x2048x512_2_2_1_1_0_0_wf
def dot_S32x2048x512_S32x512x256_S32x2048x256_2_1_1_2_0_0 : DotDims S32x2048x512 S32x512x256 S32x2048x256 where
  lhsContracting := [2]
  rhsContracting := [1]
  lhsNonContracting := [1]
  rhsNonContracting := [2]
  lhsBatch := [0]
  rhsBatch := [0]
  wf := dot_S32x2048x512_S32x512x256_S32x2048x256_2_1_1_2_0_0_wf
def dot_S32x2048x512_S32x2048x256_S32x512x256_1_1_2_2_0_0 : DotDims S32x2048x512 S32x2048x256 S32x512x256 where
  lhsContracting := [1]
  rhsContracting := [1]
  lhsNonContracting := [2]
  rhsNonContracting := [2]
  lhsBatch := [0]
  rhsBatch := [0]
  wf := dot_S32x2048x512_S32x2048x256_S32x512x256_1_1_2_2_0_0_wf

class Facts : Prop extends Facts₀ where

variable [Facts]
-- ==== Proof.Spec.lean ====
/-
  Pairwise-distance weights and the two weighted sums, as functions on the extended reals.

  One batch holds context rows c_i (i < 2048) and target rows t_j (j < 512), all of width 256.  The weight of the
  pair (i, j) is
      w(i, j) = 1 / (1 + sqrt (max (|c_i|² + |t_j|² - 2 ⟨c_i, t_j⟩, 0))),
  the squared distance written through the two squared norms and the inner product, clamped below at zero.  The two
  results are, for each context row, the weighted sum  Σ_j w(i, j) · t_j  of the target rows, and, for each target
  row, the weighted sum  Σ_i w(i, j) · c_i  of the context rows.  Every sum is a finite sum over a literal range and
  every operation the extended reals' own; the float words 0, 1 and 2 are kept as their bit patterns (the same word on
  both sides of an equation is never evaluated).

  A matrix is given by its rows, `Fin r → Fin 256 → EReal`; `rows X b` reads them off batch `b` of a rank-3
  array, whatever its leading extent (one block of a batch, or the whole array of 32 batches).
-/
import Idealize.ShloMosaic.PureOps.Ideal
import Idealize.ShloMosaic.Lib.ValueIdx

noncomputable section

namespace PairDist

open Idealize.ShloMosaic Idealize.ShloMosaic.ValueIdx
open scoped BigOperators

/-- The weight of context row `i` against target row `j`: the reciprocal of one plus their Euclidean distance, the
    squared distance computed as `|c_i|² + |t_j|² - 2 ⟨c_i, t_j⟩` and clamped at zero before the root. -/
def weight (cr : Fin 2048 → Fin 256 → EReal) (tr : Fin 512 → Fin 256 → EReal) (i : Fin 2048) (j : Fin 512) : EReal :=
  Ideal.div (Ideal.ofBits .f32 0x3F800000#32)
    (Ideal.ofBits .f32 0x3F800000#32 + Ideal.sqrt (max
      (((∑ d : Fin 256, cr i d * cr i d) + ∑ d : Fin 256, tr j d * tr j d)
        - Ideal.ofBits .f32 0x40000000#32 * ∑ d : Fin 256, cr i d * tr j d)
      (Ideal.ofBits .f32 0x00000000#32)))

/-- Row `i` of the context-side result at column `d`: the target rows summed with the weights of row `i`. -/
def ctxOut (cr : Fin 2048 → Fin 256 → EReal) (tr : Fin 512 → Fin 256 → EReal) (i : Fin 2048) (d : Fin 256) : EReal :=
  ∑ j : Fin 512, weight cr tr i j * tr j d

/-- Row `j` of the target-side result at column `d`: the context rows summed with the weights of column `j`. -/
def tgtOut (cr : Fin 2048 → Fin 256 → EReal) (tr : Fin 512 → Fin 256 → EReal) (j : Fin 512) (d : Fin 256) : EReal :=
  ∑ i : Fin 2048, weight cr tr i j * cr i d

/-- The rows of batch `b` of a rank-3 array of width 256. -/
def rows {n r : Nat} (X : (⟨3, ![n, r, 256]⟩ : Shape).Idx → EReal) (b : Fin n) : Fin r → Fin 256 → EReal :=
  fun i d => X (ix3 b i d)

/-- The context-side result over all 32 batches, as one function of the two argument arrays. -/
def g2c (C : (⟨3, ![32, 2048, 256]⟩ : Shape).Idx → EReal) (T : (⟨3, ![32, 512, 256]⟩ : Shape).Idx → EReal) :
    (⟨3, ![32, 2048, 256]⟩ : Shape).Idx → EReal :=
  fun x => ctxOut (rows C (x 0)) (rows T (x 0)) (x 1) (x 2)

/-- The target-side result over all 32 batches, as one function of the two argument arrays. -/
def g2t (C : (⟨3, ![32, 2048, 256]⟩ : Shape).Idx → EReal) (T : (⟨3, ![32, 512, 256]⟩ : Shape).Idx → EReal) :
    (⟨3, ![32, 512, 256]⟩ : Shape).Idx → EReal :=
  fun x => tgtOut (rows C (x 0)) (rows T (x 0)) (x 1) (x 2)

theorem g2c_apply (C : (⟨3, ![32, 2048, 256]⟩ : Shape).Idx → EReal) (T : (⟨3, ![32, 512, 256]⟩ : Shape).Idx → EReal)
    (b : Fin 32) (i : Fin 2048) (d : Fin 256) : g2c C T (ix3 b i d) = ctxOut (rows C b) (rows T b) i d := rfl

theorem g2t_apply (C : (⟨3, ![32, 2048, 256]⟩ : Shape).Idx → EReal) (T : (⟨3, ![32, 512, 256]⟩ : Shape).Idx → EReal)
    (b : Fin 32) (j : Fin 512) (d : Fin 256) : g2t C T (ix3 b j d) = tgtOut (rows C b) (rows T b) j d := rfl

end PairDist

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.BlockOps.lean ====
/-
  The non-pointwise operations of the kernel body, each read at an index given by coordinates, at the ideal
  instance: a row's sum of squares carried as a column and broadcast along the other axis (for the context rows
  directly, for the target rows through a transpose of the column into a row), and the three matrix products
  into a zero accumulator as finite sums over the contracted position.
-/
import proofs.«108885_j53678501265786_1_alg».proof.Proof.Gen.KernelIdeal.Skeleton
import proofs.«108885_j53678501265786_1_alg».proof.Proof.LibColumnLayout
import Idealize.ShloMosaic.Lib.ValueLayout
import Idealize.ShloMosaic.Lib.ValueIdx
import Idealize.ShloMosaic.PureOps.Ideal.Laws

noncomputable section

namespace PairDist.Block

open Cert.KernelIdeal Cert.KernelIdeal.Gen Idealize.ShloMosaic Idealize.ShloMosaic.ValueIdx
open scoped BigOperators

/-! ## Sums of squares along a row -/

/-- Reducing a 2048×256 matrix along its second axis inserts the summed position as the second coordinate. -/
theorem lift_ctx (i : Fin 2048) (d : Fin 256) : reduces_S2048x256_S2048.lift (ix1 i) d = ix2 i d :=
  funext fun a => Fin.ext (by match a with | ⟨0, _⟩ => rfl | ⟨1, _⟩ => rfl)

/-- The same for a 512×256 matrix. -/
theorem lift_tgt (j : Fin 512) (d : Fin 256) : reduces_S512x256_S512.lift (ix1 j) d = ix2 j d :=
  funext fun a => Fin.ext (by match a with | ⟨0, _⟩ => rfl | ⟨1, _⟩ => rfl)

/-- A row sum of a 2048×256 matrix: entry `i` is the sum of row `i`. -/
theorem rowsum_ctx (v : FVec Ideal S2048x256 .f32) (i : Fin 2048) :
    multiReduction .add [1] S2048 v 0x00000000#32 reduces_S2048x256_S2048 (.inl rfl) rfl (ix1 i) = ∑ d : Fin 256, v (ix2 i d) := by
  refine (Ideal.multiReduction_add_single v 0x00000000#32 reduces_S2048x256_S2048 (.inl rfl) rfl (ix1 i)).trans ?_
  exact Finset.sum_congr rfl fun d _ => congrArg v (lift_ctx i d)

/-- A row sum of a 512×256 matrix: entry `j` is the sum of row `j`. -/
theorem rowsum_tgt (v : FVec Ideal S512x256 .f32) (j : Fin 512) :
    multiReduction .add [1] S512 v 0x00000000#32 reduces_S512x256_S512 (.inl rfl) rfl (ix1 j) = ∑ d : Fin 256, v (ix2 j d) := by
  refine (Ideal.multiReduction_add_single v 0x00000000#32 reduces_S512x256_S512 (.inl rfl) rfl (ix1 j)).trans ?_
  exact Finset.sum_congr rfl fun d _ => congrArg v (lift_tgt j d)

/-- The squared norms of the context rows, kept as a column and broadcast over the 512 columns: at `(i, j)` the
    squared norm of row `i`, whatever `j`. -/
theorem sqcol_ctx (v : FVec Ideal S2048x256 .f32) (i : Fin 2048) (j : Fin 512) :
    broadcastTo S2048x512 (shapeCast S2048x1 (multiReduction .add [1] S2048 (mulf v v) 0x00000000#32 reduces_S2048x256_S2048 (.inl rfl) rfl) shapeCasts_S2048_S2048x1) broadcasts_S2048x1_S2048x512 (ix2 i j)
      = ∑ d : Fin 256, v (ix2 i d) * v (ix2 i d) := by
  rw [PhysLoss.broadcastTo_a1_ab_apply, PhysLoss.shapeCast_a_a1_apply, rowsum_ctx]
  rfl

/-- The squared norms of the target rows, kept as a column, transposed into a row and broadcast over the 2048
    rows: at `(i, j)` the squared norm of target row `j`, whatever `i`. -/
theorem sqrow_tgt (w : FVec Ideal S512x256 .f32) (i : Fin 2048) (j : Fin 512) :
    broadcastTo S2048x512 (transpose S1x512 [1, 0] (shapeCast S512x1 (multiReduction .add [1] S512 (mulf w w) 0x00000000#32 reduces_S512x256_S512 (.inl rfl) rfl) shapeCasts_S512_S512x1) transposes_S512x1_p1_0_S1x512) broadcasts_S1x512_S2048x512 (ix2 i j)
      = ∑ d : Fin 256, w (ix2 j d) * w (ix2 j d) := by
  rw [broadcastTo_1b_ab_apply, transpose_ix2_apply, PhysLoss.shapeCast_a_a1_apply, rowsum_tgt]
  rfl

/-- A square root of a vector is taken entry by entry. -/
theorem sqrt_apply {s : Shape} {φ : FTy} (a : FVec Ideal s φ) (x : s.Idx) : sqrt a x = Ideal.sqrt (a x) := rfl

/-! ## The three matrix products

Each is a plain rows-by-columns product: the left operand contracts its second axis, the right its first.  At the ideal
instance the product into a zero accumulator, read at `(i, j)`, is the sum over the contracted position `k` of the left
entry `(i, k)` times the right entry `(k, j)`: the operand indices are named coordinate by coordinate and the contraction
index set is identified with its one coordinate. -/

theorem inner_lhs0 (x : S2048x512.Idx) (q : dot_S2048x256_S256x512_S2048x512_1_0_0_1_n_n.contr.Idx) : (dot_S2048x256_S256x512_S2048x512_1_0_0_1_n_n.lhsIdx x q 0).val = (x 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem inner_lhs1 (x : S2048x512.Idx) (q : dot_S2048x256_S256x512_S2048x512_1_0_0_1_n_n.contr.Idx) : (dot_S2048x256_S256x512_S2048x512_1_0_0_1_n_n.lhsIdx x q 1).val = (q ⟨0, by decide⟩).val :=
  dot_S2048x256_S256x512_S2048x512_1_0_0_1_n_n.lhsIdx_val_of_single rfl x q
theorem inner_rhs0 (x : S2048x512.Idx) (q : dot_S2048x256_S256x512_S2048x512_1_0_0_1_n_n.contr.Idx) : (dot_S2048x256_S256x512_S2048x512_1_0_0_1_n_n.rhsIdx x q 0).val = (q ⟨0, by decide⟩).val :=
  dot_S2048x256_S256x512_S2048x512_1_0_0_1_n_n.rhsIdx_val_of_single rfl x q
theorem inner_rhs1 (x : S2048x512.Idx) (q : dot_S2048x256_S256x512_S2048x512_1_0_0_1_n_n.contr.Idx) : (dot_S2048x256_S256x512_S2048x512_1_0_0_1_n_n.rhsIdx x q 1).val = (x 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- The 2048×256 by 256×512 product into a zero accumulator, at `(i, j)`: the sum over the 256 contracted positions. -/
theorem inner_apply (l : FVec Ideal S2048x256 .bf16) (r : FVec Ideal S256x512 .bf16) (i : Fin 2048) (j : Fin 512) :
    matmul dot_S2048x256_S256x512_S2048x512_1_0_0_1_n_n none l r (constant S2048x512 .f32 0x00000000#32) (ix2 i j) = ∑ k : Fin 256, l (ix2 i k) * r (ix2 k j) := by
  simp only [matmul]
  rw [Ideal.matmul_constant_zero_apply, ← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 i j) ((contrEquiv1 dot_S2048x256_S256x512_S2048x512_1_0_0_1_n_n 256 rfl rfl).symm k) = ix2 i k := funext fun a => Fin.ext (by
    match a with
    | ⟨0, _⟩ => exact inner_lhs0 _ _
    | ⟨1, _⟩ => exact (inner_lhs1 _ _).trans hk)
  have er : dot_S2048x256_S256x512_S2048x512_1_0_0_1_n_n.rhsIdx (ix2 i j) ((contrEquiv1 dot_S2048x256_S256x512_S2048x512_1_0_0_1_n_n 256 rfl rfl).symm k) = ix2 k j := funext fun a => Fin.ext (by
    match a with
    | ⟨0, _⟩ => exact (inner_rhs0 _ _).trans hk
    | ⟨1, _⟩ => exact inner_rhs1 _ _)
  rw [el, er]

theorem wsumT_lhs0 (x : S2048x256.Idx) (q : dot_S2048x512_S512x256_S2048x256_1_0_0_1_n_n.contr.Idx) : (dot_S2048x512_S512x256_S2048x256_1_0_0_1_n_n.lhsIdx x q 0).val = (x 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem wsumT_lhs1 (x : S2048x256.Idx) (q : dot_S2048x512_S512x256_S2048x256_1_0_0_1_n_n.contr.Idx) : (dot_S2048x512_S512x256_S2048x256_1_0_0_1_n_n.lhsIdx x q 1).val = (q ⟨0, by decide⟩).val :=
  dot_S2048x512_S512x256_S2048x256_1_0_0_1_n_n.lhsIdx_val_of_single rfl x q
theorem wsumT_rhs0 (x : S2048x256.Idx) (q : dot_S2048x512_S512x256_S2048x256_1_0_0_1_n_n.contr.Idx) : (dot_S2048x512_S512x256_S2048x256_1_0_0_1_n_n.rhsIdx x q 0).val = (q ⟨0, by decide⟩).val :=
  dot_S2048x512_S512x256_S2048x256_1_0_0_1_n_n.rhsIdx_val_of_single rfl x q
theorem wsumT_rhs1 (x : S2048x256.Idx) (q : dot_S2048x512_S512x256_S2048x256_1_0_0_1_n_n.contr.Idx) : (dot_S2048x512_S512x256_S2048x256_1_0_0_1_n_n.rhsIdx x q 1).val = (x 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- The 2048×512 by 512×256 product into a zero accumulator, at `(i, j)`: the sum over the 512 contracted positions. -/
theorem wsumT_apply (l : FVec Ideal S2048x512 .bf16) (r : FVec Ideal S512x256 .bf16) (i : Fin 2048) (j : Fin 256) :
    matmul dot_S2048x512_S512x256_S2048x256_1_0_0_1_n_n none l r (constant S2048x256 .f32 0x00000000#32) (ix2 i j) = ∑ k : Fin 512, l (ix2 i k) * r (ix2 k j) := by
  simp only [matmul]
  rw [Ideal.matmul_constant_zero_apply, ← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 i j) ((contrEquiv1 dot_S2048x512_S512x256_S2048x256_1_0_0_1_n_n 512 rfl rfl).symm k) = ix2 i k := funext fun a => Fin.ext (by
    match a with
    | ⟨0, _⟩ => exact wsumT_lhs0 _ _
    | ⟨1, _⟩ => exact (wsumT_lhs1 _ _).trans hk)
  have er : dot_S2048x512_S512x256_S2048x256_1_0_0_1_n_n.rhsIdx (ix2 i j) ((contrEquiv1 dot_S2048x512_S512x256_S2048x256_1_0_0_1_n_n 512 rfl rfl).symm k) = ix2 k j := funext fun a => Fin.ext (by
    match a with
    | ⟨0, _⟩ => exact (wsumT_rhs0 _ _).trans hk
    | ⟨1, _⟩ => exact wsumT_rhs1 _ _)
  rw [el, er]

theorem wsumC_lhs0 (x : S512x256.Idx) (q : dot_S512x2048_S2048x256_S512x256_1_0_0_1_n_n.contr.Idx) : (dot_S512x2048_S2048x256_S512x256_1_0_0_1_n_n.lhsIdx x q 0).val = (x 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem wsumC_lhs1 (x : S512x256.Idx) (q : dot_S512x2048_S2048x256_S512x256_1_0_0_1_n_n.contr.Idx) : (dot_S512x2048_S2048x256_S512x256_1_0_0_1_n_n.lhsIdx x q 1).val = (q ⟨0, by decide⟩).val :=
  dot_S512x2048_S2048x256_S512x256_1_0_0_1_n_n.lhsIdx_val_of_single rfl x q
theorem wsumC_rhs0 (x : S512x256.Idx) (q : dot_S512x2048_S2048x256_S512x256_1_0_0_1_n_n.contr.Idx) : (dot_S512x2048_S2048x256_S512x256_1_0_0_1_n_n.rhsIdx x q 0).val = (q ⟨0, by decide⟩).val :=
  dot_S512x2048_S2048x256_S512x256_1_0_0_1_n_n.rhsIdx_val_of_single rfl x q
theorem wsumC_rhs1 (x : S512x256.Idx) (q : dot_S512x2048_S2048x256_S512x256_1_0_0_1_n_n.contr.Idx) : (dot_S512x2048_S2048x256_S512x256_1_0_0_1_n_n.rhsIdx x q 1).val = (x 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- The 512×2048 by 2048×256 product into a zero accumulator, at `(i, j)`: the sum over the 2048 contracted positions. -/
theorem wsumC_apply (l : FVec Ideal S512x2048 .bf16) (r : FVec Ideal S2048x256 .bf16) (i : Fin 512) (j : Fin 256) :
    matmul dot_S512x2048_S2048x256_S512x256_1_0_0_1_n_n none l r (constant S512x256 .f32 0x00000000#32) (ix2 i j) = ∑ k : Fin 2048, l (ix2 i k) * r (ix2 k j) := by
  simp only [matmul]
  rw [Ideal.matmul_constant_zero_apply, ← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 i j) ((contrEquiv1 dot_S512x2048_S2048x256_S512x256_1_0_0_1_n_n 2048 rfl rfl).symm k) = ix2 i k := funext fun a => Fin.ext (by
    match a with
    | ⟨0, _⟩ => exact wsumC_lhs0 _ _
    | ⟨1, _⟩ => exact (wsumC_lhs1 _ _).trans hk)
  have er : dot_S512x2048_S2048x256_S512x256_1_0_0_1_n_n.rhsIdx (ix2 i j) ((contrEquiv1 dot_S512x2048_S2048x256_S512x256_1_0_0_1_n_n 2048 rfl rfl).symm k) = ix2 k j := funext fun a => Fin.ext (by
    match a with
    | ⟨0, _⟩ => exact (wsumC_rhs0 _ _).trans hk
    | ⟨1, _⟩ => exact wsumC_rhs1 _ _)
  rw [el, er]

end PairDist.Block

end
-- ==== Proof.BlockValue.lean ====
/-
  One batch's block through the kernel body, read at an index: the weights matrix and the two products the body
  stores are the pairwise-distance weights and weighted sums of the block's rows.
-/
import proofs.«108885_j53678501265786_1_alg».proof.Proof.Gen.KernelIdeal.Skeleton
import proofs.«108885_j53678501265786_1_alg».proof.Proof.Spec
import proofs.«108885_j53678501265786_1_alg».proof.Proof.BlockOps
import Idealize.ShloMosaic.Lib.ValueLayout
import Idealize.ShloMosaic.Lib.ValueIdx
import Idealize.ShloMosaic.PureOps.Ideal.Laws

noncomputable section

namespace PairDist.Block

open Cert.KernelIdeal Cert.KernelIdeal.Gen Idealize.ShloMosaic Idealize.ShloMosaic.ValueIdx PairDist
open scoped BigOperators

/-- The context block with its leading unit axis dropped: entry `(i, d)` is the block's entry `(0, i, d)`. -/
theorem ctx2d_apply (x0 : Vec Ideal S1x2048x256 .f32) (i : Fin 2048) (d : Fin 256) :
    k0_pay2 (F := Ideal) x0 (ix2 i d) = x0 (ix3 (0 : Fin 1) i d) := by
  unfold k0_pay2
  exact shapeCast_1ab_ab_apply x0 _ i d

/-- The target block with its leading unit axis dropped. -/
theorem tgt2d_apply (x1 : Vec Ideal S1x512x256 .f32) (j : Fin 512) (d : Fin 256) :
    k0_pay3 (F := Ideal) x1 (ix2 j d) = x1 (ix3 (0 : Fin 1) j d) := by
  unfold k0_pay3
  exact shapeCast_1ab_ab_apply x1 _ j d

/-- Narrowing the context block to sixteen bits changes no value. -/
theorem ctx16_apply (x0 : Vec Ideal S1x2048x256 .f32) (i : Fin 2048) (d : Fin 256) :
    k0_pay4 (F := Ideal) x0 (ix2 i d) = x0 (ix3 (0 : Fin 1) i d) := by
  unfold k0_pay4
  exact ctx2d_apply x0 i d

/-- Narrowing the target block to sixteen bits changes no value. -/
theorem tgt16_apply (x1 : Vec Ideal S1x512x256 .f32) (j : Fin 512) (d : Fin 256) :
    k0_pay5 (F := Ideal) x1 (ix2 j d) = x1 (ix3 (0 : Fin 1) j d) := by
  unfold k0_pay5
  exact tgt2d_apply x1 j d

/-- The narrowed target block transposed: entry `(d, j)` is the block's entry `(0, j, d)`. -/
theorem tgt16T_apply (x1 : Vec Ideal S1x512x256 .f32) (d : Fin 256) (j : Fin 512) :
    transpose S256x512 [1, 0] (k0_pay5 (F := Ideal) x1) transposes_S512x256_p1_0_S256x512 (ix2 d j) = x1 (ix3 (0 : Fin 1) j d) :=
  (transpose_ix2_apply _ _ d j).trans (tgt16_apply x1 j d)

/-- The body's weights matrix at `(i, j)` is the weight of the block's context row `i` against its target row `j`. -/
theorem weights_apply (x0 : Vec Ideal S1x2048x256 .f32) (x1 : Vec Ideal S1x512x256 .f32) (i : Fin 2048) (j : Fin 512) :
    k0_pay6 (F := Ideal) x0 x1 (ix2 i j) = weight (rows x0 (0 : Fin 1)) (rows x1 (0 : Fin 1)) i j := by
  unfold k0_pay6 weight
  simp only [truncf_apply, divf_apply, addf_apply, subf_apply, mulf_apply, maximumf_apply, broadcast_apply, sqrt_apply]
  rw [sqcol_ctx, sqrow_tgt, inner_apply]
  simp only [ctx2d_apply x0, tgt2d_apply x1, ctx16_apply x0, tgt16T_apply x1, rows, Ideal.ofBits_def]

/-- The value stored to the context-side output block, at `(0, i, d)`: the target rows summed with the weights of
    context row `i`. -/
theorem ctx_block_apply (x0 : Vec Ideal S1x2048x256 .f32) (x1 : Vec Ideal S1x512x256 .f32) (u : Fin 1) (i : Fin 2048) (d : Fin 256) :
    k0_pay8 (F := Ideal) x0 x1 (ix3 u i d) = ctxOut (rows x0 (0 : Fin 1)) (rows x1 (0 : Fin 1)) i d := by
  unfold k0_pay8 ctxOut
  rw [shapeCast_ab_1ab_apply, wsumT_apply]
  simp only [weights_apply x0 x1, tgt16_apply x1, rows]

/-- The weights matrix transposed: entry `(j, i)` is the weight of context row `i` against target row `j`. -/
theorem weightsT_apply (x0 : Vec Ideal S1x2048x256 .f32) (x1 : Vec Ideal S1x512x256 .f32) (j : Fin 512) (i : Fin 2048) :
    transpose S512x2048 [1, 0] (k0_pay6 (F := Ideal) x0 x1) transposes_S2048x512_p1_0_S512x2048 (ix2 j i)
      = weight (rows x0 (0 : Fin 1)) (rows x1 (0 : Fin 1)) i j :=
  (transpose_ix2_apply _ _ j i).trans (weights_apply x0 x1 i j)

/-- The value stored to the target-side output block, at `(0, j, d)`: the context rows summed with the weights of
    target row `j` (the weights matrix enters this product transposed). -/
theorem tgt_block_apply (x0 : Vec Ideal S1x2048x256 .f32) (x1 : Vec Ideal S1x512x256 .f32) (u : Fin 1) (j : Fin 512) (d : Fin 256) :
    k0_pay1 (F := Ideal) (k0_pay7 (F := Ideal) x0 x1) (ix3 u j d) = tgtOut (rows x0 (0 : Fin 1)) (rows x1 (0 : Fin 1)) j d := by
  unfold k0_pay1 k0_pay7 tgtOut
  rw [shapeCast_ab_1ab_apply, wsumC_apply]
  simp only [weightsT_apply x0 x1, ctx16_apply x0, rows]

end PairDist.Block

end
-- ==== Proof.KernelValue.lean ====
/-
  From one batch's blocks to the whole arrays, and the run.

  The kernel walks a grid of 32 points, one per batch.  At point t each of its four windows holds block t of its
  array: the rows of batch t, all of them (2048 context rows or 512 target rows) and all 256 columns.  The body reads
  the two input blocks whole and writes each output block whole, so what point t sends back to an output array is a
  function of batch t of the two arguments only.  The block-level lemmas say that function is the weighted sum of the
  specification, computed from the block's own rows; here the block's rows are identified with the rows of batch t
  of the argument arrays, the 32 blocks are seen to tile each output array, and so after the run each output array
  is the specification's whole-array function of the two argument arrays.  The program's last step joins the two
  output arrays along the row axis; its result is therefore the same joining of the two specification functions.
-/
import proofs.«108885_j53678501265786_1_alg».proof.Proof.Gen.KernelIdeal.Frame
import proofs.«108885_j53678501265786_1_alg».proof.Proof.BlockValue
import Idealize.ShloMosaic.Lib.Pipeline.Value
import Idealize.ShloMosaic.Lib.ValueIdx
import Idealize.ShloMosaic.Lib.StableHlo.Run

noncomputable section

namespace PairDist.Kernel

open Cert.KernelIdeal Cert.KernelIdeal.Gen Idealize.ShloMosaic Idealize.ShloMosaic.TcCoe Idealize.SL.Sem Idealize.ShloMosaic.ValueIdx PairDist
open Idealize.ShloMosaic.Pipeline (Dat)

variable (m : (ℓ : Loc nD τ sig) → Buf (Elt Ideal) ℓ) (ρ : Dev nD → PrngReg)

/-! ## Where a block sits in its array -/

/-- The body's loads and stores start at offset zero on every axis of a block. -/
theorem zero_offsets : (![0, 0, 0] : Fin 3 → Nat) = fun _ => 0 := funext fun a => by fin_cases a <;> rfl

/-- Every window's block index at grid point `t` is `(t, 0, 0)`: point `t` works on batch `t`, and a block spans
    all rows and all columns of its batch.  Checked point by point over the 32 points. -/
theorem index_is_batch : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- A grid point is a batch number: there are 32 points. -/
theorem batch_lt (t : Fin cfg0.N) : t.val < 32 := by
  have hN : cfg0.N = 32 := N_0
  have := t.isLt
  omega

/-- Element `(u, i, d)` of the context input's block at point `t` is element `(t, i, d)` of the context array: on each
    axis the array coordinate is the block index times the block's extent plus the coordinate inside the block, and
    the block index is `(t, 0, 0)` with extents `(1, 2048, 256)`. -/
theorem ctx_in_index (t : Fin cfg0.N) (u : Fin 1) (i : Fin 2048) (d : Fin 256) :
    ((cfg0.win 0).blk t).view.emb (ix3 u i d) = (ix3 (⟨t.val, batch_lt t⟩ : Fin 32) i d : S32x2048x256.Idx) := by
  obtain ⟨⟨e0, e1, e2⟩, -⟩ := index_is_batch t
  funext a; apply Fin.ext
  match a with
  | ⟨0, _⟩ => show win0_0.index t (0 : Fin 3) * 1 + 1 * u.val = t.val; omega
  | ⟨1, _⟩ => show win0_0.index t (1 : Fin 3) * 2048 + 1 * i.val = i.val; omega
  | ⟨2, _⟩ => show win0_0.index t (2 : Fin 3) * 256 + 1 * d.val = d.val; omega

/-- The same for the target input's block, with 512 rows. -/
theorem tgt_in_index (t : Fin cfg0.N) (u : Fin 1) (j : Fin 512) (d : Fin 256) :
    ((cfg0.win 1).blk t).view.emb (ix3 u j d) = (ix3 (⟨t.val, batch_lt t⟩ : Fin 32) j d : S32x512x256.Idx) := by
  obtain ⟨-, ⟨e0, e1, e2⟩, -⟩ := index_is_batch t
  funext a; apply Fin.ext
  match a with
  | ⟨0, _⟩ => show win0_1.index t (0 : Fin 3) * 1 + 1 * u.val = t.val; omega
  | ⟨1, _⟩ => show win0_1.index t (1 : Fin 3) * 512 + 1 * j.val = j.val; omega
  | ⟨2, _⟩ => show win0_1.index t (2 : Fin 3) * 256 + 1 * d.val = d.val; omega

/-- The same for the context-side output's block. -/
theorem ctx_out_index (t : Fin cfg0.N) (u : Fin 1) (i : Fin 2048) (d : Fin 256) :
    ((cfg0.win 2).blk t).view.emb (ix3 u i d) = (ix3 (⟨t.val, batch_lt t⟩ : Fin 32) i d : S32x2048x256.Idx) := by
  obtain ⟨-, -, ⟨e0, e1, e2⟩, -⟩ := index_is_batch t
  funext a; apply Fin.ext
  match a with
  | ⟨0, _⟩ => show win0_2.index t (0 : Fin 3) * 1 + 1 * u.val = t.val; omega
  | ⟨1, _⟩ => show win0_2.index t (1 : Fin 3) * 2048 + 1 * i.val = i.val; omega
  | ⟨2, _⟩ => show win0_2.index t (2 : Fin 3) * 256 + 1 * d.val = d.val; omega

/-- The same for the target-side output's block. -/
theorem tgt_out_index (t : Fin cfg0.N) (u : Fin 1) (j : Fin 512) (d : Fin 256) :
    ((cfg0.win 3).blk t).view.emb (ix3 u j d) = (ix3 (⟨t.val, batch_lt t⟩ : Fin 32) j d : S32x512x256.Idx) := by
  obtain ⟨-, -, -, e0, e1, e2⟩ := index_is_batch t
  funext a; apply Fin.ext
  match a with
  | ⟨0, _⟩ => show win0_3.index t (0 : Fin 3) * 1 + 1 * u.val = t.val; omega
  | ⟨1, _⟩ => show win0_3.index t (1 : Fin 3) * 512 + 1 * j.val = j.val; omega
  | ⟨2, _⟩ => show win0_3.index t (2 : Fin 3) * 256 + 1 * d.val = d.val; omega

/-! ## The input blocks' rows are the arrays' rows at batch t -/

/-- The rows of the context block at point `t` are the rows of batch `t` of the context array. -/
theorem ctx_block_rows (c : Dev nD) (t : Fin cfg0.N) :
    rows (iblk m c 0 t : Vec Ideal S1x2048x256 .f32) (0 : Fin 1)
      = rows (V m c main_arg0 : S32x2048x256.Idx → EReal) (⟨t.val, batch_lt t⟩ : Fin 32) := by
  funext i d
  show V m c main_arg0 (((cfg0.win 0).blk t).view.emb (ix3 0 i d)) = V m c main_arg0 (ix3 ⟨t.val, batch_lt t⟩ i d)
  rw [ctx_in_index t 0 i d]

/-- The rows of the target block at point `t` are the rows of batch `t` of the target array. -/
theorem tgt_block_rows (c : Dev nD) (t : Fin cfg0.N) :
    rows (iblk m c 1 t : Vec Ideal S1x512x256 .f32) (0 : Fin 1)
      = rows (V m c main_arg1 : S32x512x256.Idx → EReal) (⟨t.val, batch_lt t⟩ : Fin 32) := by
  funext j d
  show V m c main_arg1 (((cfg0.win 1).blk t).view.emb (ix3 0 j d)) = V m c main_arg1 (ix3 ⟨t.val, batch_lt t⟩ j d)
  rw [tgt_in_index t 0 j d]

/-! ## What one point writes is its batch of the whole-array function -/

/-- If two blocks carry the rows of batch `b` of the arrays `C` and `T`, the value the body stores to the context-side
    output at `(u, i, d)` is the whole-array context-side result at `(b, i, d)`: both are the weighted sum of the target
    rows of that batch with the weights of context row `i`. -/
theorem ctx_at_batch (C : S32x2048x256.Idx → EReal) (T : S32x512x256.Idx → EReal)
    (x0 : Vec Ideal S1x2048x256 .f32) (x1 : Vec Ideal S1x512x256 .f32) (b : Fin 32)
    (h0 : rows x0 (0 : Fin 1) = rows C b) (h1 : rows x1 (0 : Fin 1) = rows T b)
    (u : Fin 1) (i : Fin 2048) (d : Fin 256) :
    k0_pay8 (F := Ideal) x0 x1 (ix3 u i d) = g2c C T (ix3 b i d) := by
  rw [g2c_apply, PairDist.Block.ctx_block_apply, h0, h1]

/-- Likewise the value stored to the target-side output at `(u, j, d)` is the whole-array target-side result at
    `(b, j, d)`: the weighted sum of the context rows of that batch with the weights of target row `j`. -/
theorem tgt_at_batch (C : S32x2048x256.Idx → EReal) (T : S32x512x256.Idx → EReal)
    (x0 : Vec Ideal S1x2048x256 .f32) (x1 : Vec Ideal S1x512x256 .f32) (b : Fin 32)
    (h0 : rows x0 (0 : Fin 1) = rows C b) (h1 : rows x1 (0 : Fin 1) = rows T b)
    (u : Fin 1) (j : Fin 512) (d : Fin 256) :
    k0_pay1 (F := Ideal) (k0_pay7 (F := Ideal) x0 x1) (ix3 u j d) = g2t C T (ix3 b j d) := by
  rw [g2t_apply, PairDist.Block.tgt_block_apply, h0, h1]

/-- What point `t` writes back to the context-side output array is block `t` of `g2c` of the two argument arrays.
    The body's one store covers the block from offset zero, so the block it leaves is its stored value; the loads
    read the input blocks whole; and index by index that value is `g2c` at the block's place in the array. -/
theorem written_ctx (c : Dev nD) (t : Fin cfg0.N) :
    (dats m 0 c).flushed 2 t
      = ((cfg0.win 2).blk t).view.read (Elt Ideal) (g2c (V m c main_arg0) (V m c main_arg1)) := by
  show (cfg0.win 2).cut (grid0.coords t) ((dats m 0 c).after 2 t) = _
  rw [after0_2]
  unfold out0_2
  rw [View.canon_unit_zero zero_offsets]
  simp only [View.ld_unit_zero (S := S1x2048x256) zero_offsets, View.ld_unit_zero (S := S1x512x256) zero_offsets]
  funext y
  obtain ⟨u, i, d, rfl⟩ : ∃ (u : Fin 1) (i : Fin 2048) (d : Fin 256), y = ix3 u i d := ⟨y 0, y 1, y 2, eq_ix3 y⟩
  show k0_pay8 (F := Ideal) (iblk m c 0 t) (iblk m c 1 t) (ix3 u i d)
    = g2c (V m c main_arg0) (V m c main_arg1) (((cfg0.win 2).blk t).view.emb (ix3 u i d))
  rw [ctx_out_index t u i d]
  exact ctx_at_batch (V m c main_arg0) (V m c main_arg1) (iblk m c 0 t) (iblk m c 1 t) ⟨t.val, batch_lt t⟩
    (ctx_block_rows m c t) (tgt_block_rows m c t) u i d

/-- What point `t` writes back to the target-side output array is block `t` of `g2t` of the two argument arrays. -/
theorem written_tgt (c : Dev nD) (t : Fin cfg0.N) :
    (dats m 0 c).flushed 3 t
      = ((cfg0.win 3).blk t).view.read (Elt Ideal) (g2t (V m c main_arg0) (V m c main_arg1)) := by
  show (cfg0.win 3).cut (grid0.coords t) ((dats m 0 c).after 3 t) = _
  rw [after0_3]
  unfold out0_3
  rw [View.canon_unit_zero zero_offsets]
  simp only [View.ld_unit_zero (S := S1x2048x256) zero_offsets, View.ld_unit_zero (S := S1x512x256) zero_offsets]
  funext y
  obtain ⟨u, j, d, rfl⟩ : ∃ (u : Fin 1) (j : Fin 512) (d : Fin 256), y = ix3 u j d := ⟨y 0, y 1, y 2, eq_ix3 y⟩
  show k0_pay1 (F := Ideal) (k0_pay7 (F := Ideal) (iblk m c 0 t) (iblk m c 1 t)) (ix3 u j d)
    = g2t (V m c main_arg0) (V m c main_arg1) (((cfg0.win 3).blk t).view.emb (ix3 u j d))
  rw [tgt_out_index t u j d]
  exact tgt_at_batch (V m c main_arg0) (V m c main_arg1) (iblk m c 0 t) (iblk m c 1 t) ⟨t.val, batch_lt t⟩
    (ctx_block_rows m c t) (tgt_block_rows m c t) u j d

/-! ## The 32 blocks tile each output array -/

/-- An index of the context-side output array lies in point `t`'s block iff on each axis its coordinate is within the
    block's extent past the block's start. -/
theorem mem_ctx_block (t : Fin cfg0.N) (x : S32x2048x256.Idx) :
    x ∈ ((cfg0.win 2).blk t).view.set
      ↔ ∀ a : Fin 3, win0_2.index t a * S1x2048x256.size a ≤ (x a).val
          ∧ (x a).val < win0_2.index t a * S1x2048x256.size a + S1x2048x256.size a := by
  show x ∈ ((View.whole main_v0_0).slice (win0_2.rect t)).set ↔ _
  rw [View.set_slice_whole, Rect.mem_set_unit]
  exact Iff.rfl

/-- The same for the target-side output array. -/
theorem mem_tgt_block (t : Fin cfg0.N) (x : S32x512x256.Idx) :
    x ∈ ((cfg0.win 3).blk t).view.set
      ↔ ∀ a : Fin 3, win0_3.index t a * S1x512x256.size a ≤ (x a).val
          ∧ (x a).val < win0_3.index t a * S1x512x256.size a + S1x512x256.size a := by
  show x ∈ ((View.whole main_v0_1).slice (win0_3.rect t)).set ↔ _
  rw [View.set_slice_whole, Rect.mem_set_unit]
  exact Iff.rfl

/-- Every index `(b, i, d)` of the context-side output array is written by the point of its batch, `t = b`: that
    point's block is batch `b` with all 2048 rows and all 256 columns. -/
theorem ctx_blocks_cover (x : S32x2048x256.Idx) :
    ∃ t : Fin cfg0.N, (cfg0.win 2).flush t = true ∧ x ∈ ((cfg0.win 2).blk t).view.set := by
  have hx0 : (x 0).val < 32 := (x 0).isLt
  have hx1 : (x 1).val < 2048 := (x 1).isLt
  have hx2 : (x 2).val < 256 := (x 2).isLt
  obtain ⟨t, ht⟩ : ∃ t : Fin cfg0.N, t.val = (x 0).val :=
    ⟨⟨(x 0).val, by rw [show cfg0.N = 32 from N_0]; exact hx0⟩, rfl⟩
  obtain ⟨-, -, ⟨e0, e1, e2⟩, -⟩ := index_is_batch t
  refine ⟨t, flush0_2 t, ?_⟩
  rw [mem_ctx_block]
  intro a
  match a with
  | ⟨0, _⟩ =>
    show win0_2.index t (0 : Fin 3) * 1 ≤ (x 0).val ∧ (x 0).val < win0_2.index t (0 : Fin 3) * 1 + 1
    omega
  | ⟨1, _⟩ =>
    show win0_2.index t (1 : Fin 3) * 2048 ≤ (x 1).val ∧ (x 1).val < win0_2.index t (1 : Fin 3) * 2048 + 2048
    omega
  | ⟨2, _⟩ =>
    show win0_2.index t (2 : Fin 3) * 256 ≤ (x 2).val ∧ (x 2).val < win0_2.index t (2 : Fin 3) * 256 + 256
    omega

/-- Every index `(b, j, d)` of the target-side output array is written by the point of its batch. -/
theorem tgt_blocks_cover (x : S32x512x256.Idx) :
    ∃ t : Fin cfg0.N, (cfg0.win 3).flush t = true ∧ x ∈ ((cfg0.win 3).blk t).view.set := by
  have hx0 : (x 0).val < 32 := (x 0).isLt
  have hx1 : (x 1).val < 512 := (x 1).isLt
  have hx2 : (x 2).val < 256 := (x 2).isLt
  obtain ⟨t, ht⟩ : ∃ t : Fin cfg0.N, t.val = (x 0).val :=
    ⟨⟨(x 0).val, by rw [show cfg0.N = 32 from N_0]; exact hx0⟩, rfl⟩
  obtain ⟨-, -, -, e0, e1, e2⟩ := index_is_batch t
  refine ⟨t, flush0_3 t, ?_⟩
  rw [mem_tgt_block]
  intro a
  match a with
  | ⟨0, _⟩ =>
    show win0_3.index t (0 : Fin 3) * 1 ≤ (x 0).val ∧ (x 0).val < win0_3.index t (0 : Fin 3) * 1 + 1
    omega
  | ⟨1, _⟩ =>
    show win0_3.index t (1 : Fin 3) * 512 ≤ (x 1).val ∧ (x 1).val < win0_3.index t (1 : Fin 3) * 512 + 512
    omega
  | ⟨2, _⟩ =>
    show win0_3.index t (2 : Fin 3) * 256 ≤ (x 2).val ∧ (x 2).val < win0_3.index t (2 : Fin 3) * 256 + 256
    omega

/-! ## The output arrays after the run -/

/-- After the 32 points the context-side output array is `g2c` of the two argument arrays: each point wrote its
    batch of that one function, and the batches cover the array. -/
theorem final_ctx (c : Dev nD) :
    (dats m 0 c).arrAt 2 cfg0.N
      = g2c (m ((c : Thread nD τ).loc main_arg0)) (m ((c : Thread nD τ).loc main_arg1)) := by
  rw [← V_main_arg0 m c, ← V_main_arg1 m c]
  exact (dats m 0 c).arrAt_eq_of_cover 2 (g2c (V m c main_arg0) (V m c main_arg1))
    (fun t _ => written_ctx m c t) ctx_blocks_cover

/-- After the 32 points the target-side output array is `g2t` of the two argument arrays. -/
theorem final_tgt (c : Dev nD) :
    (dats m 0 c).arrAt 3 cfg0.N
      = g2t (m ((c : Thread nD τ).loc main_arg0)) (m ((c : Thread nD τ).loc main_arg1)) := by
  rw [← V_main_arg0 m c, ← V_main_arg1 m c]
  exact (dats m 0 c).arrAt_eq_of_cover 3 (g2t (V m c main_arg0) (V m c main_arg1))
    (fun t _ => written_tgt m c t) tgt_blocks_cover

/-! ## The joining step and the run -/

/-- The program's last step joins the two output arrays along the row axis.  It reads them as the grid left them, so
    its result is the joining of `g2c` and `g2t` of the argument arrays; the joining itself is carried as it stands. -/
theorem joined_after_run (c : Dev nD) :
    Pipeline.afterTail₀ cfgs (dats m) 0 (V0 m) [hostOps1] c main_v1
      = concatenate S32x2560x256 1
          [⟨S32x2048x256, g2c (m ((c.tc : Thread nD τ).loc main_arg0)) (m ((c.tc : Thread nD τ).loc main_arg1))⟩,
           ⟨S32x512x256, g2t (m ((c.tc : Thread nD τ).loc main_arg0)) (m ((c.tc : Thread nD τ).loc main_arg1))⟩]
          concatenates_S32x2048x256_S32x512x256_S32x2560x256_d1 := by
  have e2 : Pipeline.withArrays (cfgs 0).spec c (V0 m c) (fun w => (dats m 0 c).arrAt w (cfgs 0).N)
        (Proc.devRef .tc main_v0_0)
      = g2c (m ((c.tc : Thread nD τ).loc main_arg0)) (m ((c.tc : Thread nD τ).loc main_arg1)) :=
    (Pipeline.withArrays_arr spec0 launch0.win.arr_inj c _ _ 2).trans (final_ctx m c)
  have e3 : Pipeline.withArrays (cfgs 0).spec c (V0 m c) (fun w => (dats m 0 c).arrAt w (cfgs 0).N)
        (Proc.devRef .tc main_v0_1)
      = g2t (m ((c.tc : Thread nD τ).loc main_arg0)) (m ((c.tc : Thread nD τ).loc main_arg1)) :=
    (Pipeline.withArrays_arr spec0 launch0.win.arr_inj c _ _ 3).trans (final_tgt m c)
  unfold Pipeline.afterTail₀
  show StableHlo.after hostOps1 _ (Proc.devRef .tc main_v1) = _
  after_results
  rw [e2, e3]

/-- The run: every execution terminates, the result array holds the joining along the row axis of the context-side
    and the target-side weighted sums of the two argument arrays, and the argument arrays are unchanged.  The result
    array is no window's array, so it holds what the last step computed from the arrays the grid left; each argument
    array is an input window's array and is never written. -/
theorem run : θ_run defs (onTc (τ := τ) (main (F := Ideal))) ⟨m, fun _ => 0, ρ⟩ fun r => ∀ c : Dev nD,
      r.2.mem ((c.tc : Thread nD τ).loc main_v1)
        = concatenate S32x2560x256 1
            [⟨S32x2048x256, g2c (m ((c.tc : Thread nD τ).loc main_arg0)) (m ((c.tc : Thread nD τ).loc main_arg1))⟩,
             ⟨S32x512x256, g2t (m ((c.tc : Thread nD τ).loc main_arg0)) (m ((c.tc : Thread nD τ).loc main_arg1))⟩]
            concatenates_S32x2048x256_S32x512x256_S32x2560x256_d1
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v1 (Pipeline.mem_restRefs_of main_v1 rfl (by decide))).trans (joined_after_run m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end PairDist.Kernel

end
-- ==== Proof.RefIsSpec.lean ====
/-
  The reference program computes the specification's two weighted sums.

  For one batch b with context rows c_i (i < 2048) and target rows t_j (j < 512) of width 256, the reference forms,
  entry by entry of a 2048 x 512 table,
      |c_i|^2        a sum over the width of the squares of row i, started from the word 0 and then copied along j,
      |t_j|^2        the same for target row j, copied along i,
      <c_i, t_j>     a contraction over the width,
  and from these  1 / (1 + sqrt (max (|c_i|^2 + |t_j|^2 - 2 <c_i, t_j>, 0))),  the weight of the pair (i, j).  Its two
  results contract this table of weights against the target rows (over j) and against the context rows (over i).

  The generated module reads every stage at an index, in terms of the stage before it at a composed index.  Below,
  each composed index is identified, coordinate by coordinate, with the plain triple of coordinates it stands for; the
  two sums of squares lose their initial value because the word 0 is the real number 0; and what is left is, symbol
  for symbol, the specification's `weight`, `ctxOut` and `tgtOut`.  No property of the inputs is used: every
  equation holds for arbitrary extended-real entries.
-/
import proofs.«108885_j53678501265786_1_alg».proof.Proof.Gen.ReferenceIdeal.Read
import proofs.«108885_j53678501265786_1_alg».proof.Proof.Spec
import Idealize.ShloMosaic.PureOps.Ideal.Laws
import Idealize.ShloMosaic.Lib.ValueIdx

noncomputable section

namespace PairDist.Ref

open Cert.ReferenceIdeal Cert.ReferenceIdeal.Gen Cert.ReferenceIdeal.Read Idealize.ShloMosaic Idealize.ShloMosaic.ValueIdx PairDist
open scoped BigOperators

/-- The squared norm of context row `i`, as the reference spreads it over the table of pairs: at the entry
    `(b, i, j)` it is the sum of the squares of row `i` of batch `b`, whatever `j` is.  The reference gets there by
    squaring the array entrywise, summing along the width from the initial value 0, and copying the result first to
    a column and then along the 512 targets; the three copies only drop or repeat a coordinate, and `0 + s = s`. -/
theorem ctx_sqnorm (x0 : (⟨S32x2048x256, .f32⟩ : BufTy).Contents (Elt Ideal)) (b : Fin 32) (i : Fin 2048) (j : Fin 512) :
    val_main_v7 (F := Ideal) x0 (ix3 b i j) = ∑ d : Fin 256, x0 (ix3 b i d) * x0 (ix3 b i d) := by
  rw [val_main_v7_apply, val_main_v2_apply, val_main_v1_apply, val_main_cst_apply, Ideal.ofBits_def,
    Ideal.ofBits_zero_f32, zero_add]
  refine Finset.sum_congr rfl fun k _ => ?_
  -- the summand's index: batch and row are those of the entry, the column is the summation variable
  have hk : idx_main_v1 (idx_main_v2 (idx_main_v7 (ix3 b i j))) k = ix3 b i k :=
    funext fun a => Fin.ext (by match a with | ⟨0, _⟩ => rfl | ⟨1, _⟩ => rfl | ⟨2, _⟩ => rfl)
  rw [hk, val_main_v0_apply, Ideal.mulf_def]

/-- The squared norm of target row `j`, spread over the table of pairs: at the entry `(b, i, j)` it is the sum of the
    squares of row `j` of batch `b`, whatever `i` is.  Here the sum along the width is copied to a row and then along
    the 2048 contexts, so the entry's LAST coordinate is the one that selects the row. -/
theorem tgt_sqnorm (x1 : (⟨S32x512x256, .f32⟩ : BufTy).Contents (Elt Ideal)) (b : Fin 32) (i : Fin 2048) (j : Fin 512) :
    val_main_v8 (F := Ideal) x1 (ix3 b i j) = ∑ d : Fin 256, x1 (ix3 b j d) * x1 (ix3 b j d) := by
  rw [val_main_v8_apply, val_main_v5_apply, val_main_v4_apply, val_main_cst_0_apply, Ideal.ofBits_def,
    Ideal.ofBits_zero_f32, zero_add]
  refine Finset.sum_congr rfl fun k _ => ?_
  have hk : idx_main_v4 (idx_main_v5 (idx_main_v8 (ix3 b i j))) k = ix3 b j k :=
    funext fun a => Fin.ext (by match a with | ⟨0, _⟩ => rfl | ⟨1, _⟩ => rfl | ⟨2, _⟩ => rfl)
  rw [hk, val_main_v3_apply, Ideal.mulf_def]

/-- The inner product of context row `i` and target row `j` of batch `b`: the reference's first contraction pairs
    the two arrays batch by batch and sums over the shared width, so its entry `(b, i, j)` is
    `∑ d, c_i[d] * t_j[d]`. -/
theorem inner_apply (x0 : (⟨S32x2048x256, .f32⟩ : BufTy).Contents (Elt Ideal)) (x1 : (⟨S32x512x256, .f32⟩ : BufTy).Contents (Elt Ideal))
    (b : Fin 32) (i : Fin 2048) (j : Fin 512) :
    val_main_v6 (F := Ideal) x0 x1 (ix3 b i j) = ∑ d : Fin 256, x0 (ix3 b i d) * x1 (ix3 b j d) := by
  rw [val_main_v6_apply]
  refine Finset.sum_congr rfl fun k _ => ?_
  have hl : lidx_main_v6 (ix3 b i j) k = ix3 b i k :=
    funext fun a => Fin.ext (by match a with | ⟨0, _⟩ => rfl | ⟨1, _⟩ => rfl | ⟨2, _⟩ => rfl)
  have hr : ridx_main_v6 (ix3 b i j) k = ix3 b j k :=
    funext fun a => Fin.ext (by match a with | ⟨0, _⟩ => rfl | ⟨1, _⟩ => rfl | ⟨2, _⟩ => rfl)
  rw [hl, hr]

/-- The table of weights.  Entry `(b, i, j)` of the reference's quotient stage is the specification's weight of
    context row `i` against target row `j` of batch `b`.  From the outside in, the stage is a quotient of the constant
    1 by the sum of the constant 1 and a square root; under the root stands the maximum of a difference and the constant
    0; the difference is the sum of the two squared norms minus the constant 2 times the inner product.  Every one of
    these acts entry by entry, each constant is the same word at every entry, and the three sums were read above; the
    float operations at the ideal instance are the extended reals' own, so the two sides are the same expression. -/
theorem weights_apply (x0 : (⟨S32x2048x256, .f32⟩ : BufTy).Contents (Elt Ideal)) (x1 : (⟨S32x512x256, .f32⟩ : BufTy).Contents (Elt Ideal))
    (b : Fin 32) (i : Fin 2048) (j : Fin 512) :
    val_main_v19 (F := Ideal) x0 x1 (ix3 b i j) = weight (rows x0 b) (rows x1 b) i j := by
  rw [val_main_v19_apply, val_main_v18_apply, val_main_cst_4_apply, val_main_v17_apply, val_main_v16_apply,
    val_main_cst_3_apply, val_main_v15_apply, val_main_v14_apply, val_main_v13_apply, val_main_cst_2_apply,
    val_main_v12_apply, val_main_v11_apply, val_main_v10_apply, val_main_cst_1_apply, val_main_v9_apply,
    ctx_sqnorm, tgt_sqnorm, inner_apply]
  simp only [Ideal.hostDivf_def, Ideal.addf_def, Ideal.subf_def, Ideal.mulf_def, Ideal.maximumf_def,
    Ideal.hostUnary_sqrt_def, Ideal.ofBits_def]
  -- what remains is the definition of `weight` with the rows of batch `b` written out
  rfl

/-- The context-side result.  The reference contracts the table of weights with the target array over the target
    index: its entry `(b, i, d)` is `∑ j, w(i, j) * t_j[d]` within batch `b`, which is the specification's `ctxOut`. -/
theorem ctx_eq (x0 : (⟨S32x2048x256, .f32⟩ : BufTy).Contents (Elt Ideal)) (x1 : (⟨S32x512x256, .f32⟩ : BufTy).Contents (Elt Ideal)) :
    val_main_v20 (F := Ideal) x0 x1 = g2c x0 x1 := by
  funext x
  obtain ⟨b, i, d, rfl⟩ : ∃ (b : Fin 32) (i : Fin 2048) (d : Fin 256), x = ix3 b i d := ⟨x 0, x 1, x 2, eq_ix3 x⟩
  rw [val_main_v20_apply, g2c_apply]
  unfold ctxOut
  refine Finset.sum_congr rfl fun k _ => ?_
  -- the weight is read at (b, i, k), the target array at (b, k, d)
  have hl : lidx_main_v20 (ix3 b i d) k = ix3 b i k :=
    funext fun a => Fin.ext (by match a with | ⟨0, _⟩ => rfl | ⟨1, _⟩ => rfl | ⟨2, _⟩ => rfl)
  have hr : ridx_main_v20 (ix3 b i d) k = ix3 b k d :=
    funext fun a => Fin.ext (by match a with | ⟨0, _⟩ => rfl | ⟨1, _⟩ => rfl | ⟨2, _⟩ => rfl)
  rw [hl, hr, weights_apply]
  rfl

/-- The target-side result.  The reference contracts the same table of weights with the context array over the
    context index: its entry `(b, j, d)` is `∑ i, w(i, j) * c_i[d]` within batch `b`, the specification's `tgtOut`. -/
theorem tgt_eq (x0 : (⟨S32x2048x256, .f32⟩ : BufTy).Contents (Elt Ideal)) (x1 : (⟨S32x512x256, .f32⟩ : BufTy).Contents (Elt Ideal)) :
    val_main_v21 (F := Ideal) x0 x1 = g2t x0 x1 := by
  funext x
  obtain ⟨b, j, d, rfl⟩ : ∃ (b : Fin 32) (j : Fin 512) (d : Fin 256), x = ix3 b j d := ⟨x 0, x 1, x 2, eq_ix3 x⟩
  rw [val_main_v21_apply, g2t_apply]
  unfold tgtOut
  refine Finset.sum_congr rfl fun k _ => ?_
  -- the weight is read at (b, k, j), the context array at (b, k, d)
  have hl : lidx_main_v21 (ix3 b j d) k = ix3 b k j :=
    funext fun a => Fin.ext (by match a with | ⟨0, _⟩ => rfl | ⟨1, _⟩ => rfl | ⟨2, _⟩ => rfl)
  have hr : ridx_main_v21 (ix3 b j d) k = ix3 b k d :=
    funext fun a => Fin.ext (by match a with | ⟨0, _⟩ => rfl | ⟨1, _⟩ => rfl | ⟨2, _⟩ => rfl)
  rw [hl, hr, weights_apply]
  rfl

end PairDist.Ref

end
-- ==== Proof.lean ====
/-
  A pairwise-distance attention kernel against its reference, over the extended reals.

  Each of the 32 batches holds 2048 context rows c_i and 512 target rows t_j of width 256.  Both programs form the
  weights  w(i, j) = 1 / (1 + sqrt (max (|c_i|² + |t_j|² - 2 ⟨c_i, t_j⟩, 0)))  and return, joined along the row axis,
  the two weighted sums  Σ_j w(i, j) · t_j  (2048 rows per batch) and  Σ_i w(i, j) · c_i  (512 rows per batch).

  The kernel handles one batch per grid point: it loads the batch's context and target blocks whole, forms the three
  products and the weights in between, and stores the two result blocks whole; the host then joins the two output
  arrays.  The reference is a chain of whole-array host operations ending in the same join.  Read at the ideal
  instance, a change of float format is the identity and a matrix product into a zero accumulator is the plain finite
  sum over the contracted position, so both programs compute, entry by entry, the same expression of the same entries
  of the arguments, with the sums taken over the same index ranges in the same order.  No algebraic law is needed
  beyond  0 + s = s  (the reference's sums of squares start from the float word 0), and nothing depends on the inputs
  being finite.

  The pieces: `Spec` states the weights and the two weighted sums as functions of the argument arrays; `RefIsSpec`
  reads the reference's stages at an index and finds those functions; `BlockOps` and `BlockValue` read the kernel
  body's stored values at an index and find the same functions of the block's rows; `KernelValue` passes from blocks
  to whole arrays (batch b of either output array is what grid point b wrote, and the 32 points cover every index)
  and carries the host's join; below, the five claims are assembled.  The idealized kernel differs from the kernel
  as printed by no rewrite, so the preservation claim is trivially true; the three frame claims are the generated
  frame runs (the reference's being its generated run with the result forgotten).
-/
import proofs.«108885_j53678501265786_1_alg».proof.Defs
import proofs.«108885_j53678501265786_1_alg».proof.Proof.Gen.Kernel
import proofs.«108885_j53678501265786_1_alg».proof.Proof.Gen.Kernel.Skeleton
import proofs.«108885_j53678501265786_1_alg».proof.Proof.Gen.Kernel.Launch
import proofs.«108885_j53678501265786_1_alg».proof.Proof.Gen.Kernel.Points
import proofs.«108885_j53678501265786_1_alg».proof.Proof.Gen.Kernel.Frame
import proofs.«108885_j53678501265786_1_alg».proof.Proof.Gen.KernelIdeal
import proofs.«108885_j53678501265786_1_alg».proof.Proof.Gen.KernelIdeal.Skeleton
import proofs.«108885_j53678501265786_1_alg».proof.Proof.Gen.KernelIdeal.Launch
import proofs.«108885_j53678501265786_1_alg».proof.Proof.Gen.KernelIdeal.Points
import proofs.«108885_j53678501265786_1_alg».proof.Proof.Gen.KernelIdeal.Frame
import proofs.«108885_j53678501265786_1_alg».proof.Proof.Gen.ReferenceIdeal
import proofs.«108885_j53678501265786_1_alg».proof.Proof.Gen.Pre_finite_inputs
import proofs.«108885_j53678501265786_1_alg».proof.Proof.Gen.ReferenceIdeal.Run
import proofs.«108885_j53678501265786_1_alg».proof.Proof.Gen.ReferenceIdeal.Read
import proofs.«108885_j53678501265786_1_alg».proof.Proof.KernelValue
import proofs.«108885_j53678501265786_1_alg».proof.Proof.RefIsSpec
import Idealize.ShloMosaic.Adequacy
import Idealize.ShloMosaic.Init

noncomputable section

namespace Cert.Proof

open Idealize.ShloMosaic Idealize.SL.Sem

/-- The kernel as printed runs to the end without a fault and leaves both argument arrays as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations, none of which writes an argument: its run, with what it
    says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the two arguments, both idealized programs end with the join of the context-side and
    target-side weighted sums of those arguments: the kernel's run is stated with that value, and the reference's
    last stage is the join of its two contraction stages, which are those two functions. -/
theorem algebraic : Cert.algebraic_KernelIdeal_ReferenceIdeal := by
  intro m ρ m' ρ' _ hagree
  refine ⟨_, PairDist.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq]
  unfold Cert.ReferenceIdeal.Read.val_main_v22
  rw [PairDist.Ref.ctx_eq, PairDist.Ref.tgt_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
